-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096 : Shape := ⟨1, ![4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x4096 .f32) (main_arg5 : FVec F S4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4x2048x4096 .f32) (main_arg1 : FVec F S4096 .f32) (main_arg2 : FVec F S4096x4096 .f32) (main_arg3 : FVec F S4096 .f32) (main_arg4 : FVec F S4096x4096 .f32) (main_arg5 : FVec F S4096 .f32) (main_arg6 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S4x2048x4096 : Shape := ⟨3, ![4, 2048, 4096]⟩
abbrev S4096 : Shape := ⟨1, ![4096]⟩
abbrev S4096x4096 : Shape := ⟨2, ![4096, 4096]⟩
abbrev S8192x4096 : Shape := ⟨2, ![8192, 4096]⟩
abbrev S1x4096 : Shape := ⟨2, ![1, 4096]⟩
abbrev S128x4096 : Shape := ⟨2, ![128, 4096]⟩

abbrev nBuf : Space → Nat
  | .hbm => 17
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S4096, .f32⟩
  | .hbm, ⟨7, _⟩ => ⟨S8192x4096, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S4096x4096, .bf16⟩
  | .hbm, ⟨13, _⟩ => ⟨S4096x4096, .bf16⟩
  | .hbm, ⟨14, _⟩ => ⟨S8192x4096, .bf16⟩
  | .hbm, ⟨15, _⟩ => ⟨S8192x4096, .f32⟩
  | .hbm, ⟨16, _⟩ => ⟨S4x2048x4096, .f32⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S4096x4096, .bf16⟩
  | .local _ .vmem, ⟨4, _⟩ => ⟨S1x4096, .f32⟩
  | .local _ .vmem, ⟨5, _⟩ => ⟨S128x4096, .bf16⟩
  | .local _ .vmem, ⟨6, _⟩ => ⟨S128x4096, .bf16⟩
  | .local _ .vmem, ⟨7, _⟩ => ⟨S128x4096, .bf16⟩
  | .local _ .vmem, ⟨8, _⟩ => ⟨S128x4096, .bf16⟩
  | .local _ .vmem, ⟨9, _⟩ => ⟨S4096x4096, .bf16⟩
  | .local _ .vmem, ⟨10, _⟩ => ⟨S1x4096, .f32⟩
  | .local _ .vmem, ⟨11, _⟩ => ⟨S1x4096, .f32⟩
  | .local _ .vmem, ⟨12, _⟩ => ⟨S128x4096, .f32⟩
  | .local _ .vmem, ⟨13, _⟩ => ⟨S128x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S4x2048x4096_S8192x4096 : S4x2048x4096.ShapeCasts S8192x4096
  shapeCasts_S4096_S1x4096 : S4096.ShapeCasts S1x4096
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  packedbf16_S128x4096_S128x4096_0_0 : (Rect.unit (s := S128x4096) ![0, 0] S128x4096.size inb_S128x4096_S128x4096_0_0).PackedRows (EltTy.packing .bf16)
  shapeCasts_S8192x4096_S4x2048x4096 : S8192x4096.ShapeCasts S4x2048x4096
  dot_S128x4096_S4096x4096_S128x4096_1_1_0_0_n_n_wf : DotDims.WF S128x4096 S4096x4096 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x4096.size a ≤ S4096x4096.size a
  hwx0_2 : ∀ i : grid0.Coords, EltTy.bits .bf16 = 32 ∨ (Rect.block (s := S4096x4096) S4096x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S8192x4096.size a
  hwx0_4 : ∀ i : grid0.Coords, EltTy.bits .bf16 = 32 ∨ (Rect.block (s := S8192x4096) S128x4096.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S8192x4096.size a
  hwx1_0 : ∀ i : grid1.Coords, EltTy.bits .bf16 = 32 ∨ (Rect.block (s := S8192x4096) S128x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x4096.size a ≤ S8192x4096.size a
  hwx1_4 : ∀ i : grid1.Coords, EltTy.bits .f32 = 32 ∨ (Rect.block (s := S8192x4096) S128x4096.size (cc1_transform_4 i) (hinb1_4 i)).WholeWords (EltTy.packing .f32)

variable [Facts₀]

def dot_S128x4096_S4096x4096_S128x4096_1_1_0_0_n_n : DotDims S128x4096 S4096x4096 S128x4096 where
  lhsContracting := [1]
  rhsContracting := [1]
  lhsNonContracting := [0]
  rhsNonContracting := [0]
  lhsBatch := []
  rhsBatch := []
  wf := dot_S128x4096_S4096x4096_S128x4096_1_1_0_0_n_n_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4096x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v7) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S128x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096 : Shape := ⟨1, ![4096]⟩
abbrev S4096x4096 : Shape := ⟨2, ![4096, 4096]⟩
abbrev S1x1x4096 : Shape := ⟨3, ![1, 1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S4096, .f32⟩
  | .hbm, ⟨7, _⟩ => ⟨S1x1x4096, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | .hbm, ⟨11, _⟩ => ⟨S1x1x4096, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | .hbm, ⟨15, _⟩ => ⟨S1x1x4096, .f32⟩
  | .hbm, ⟨16, _⟩ => ⟨S4x2048x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.MainRun.lean ====
/-
  The whole program's run with the result array named.

  The program is a stretch of host operations (re-layings of the arguments and two changes of float format), the
  first matrix-product call, the second matrix-product call, and one last re-laying. Every weakly fair execution
  from a memory with zero counters terminates without a fault; at the end the result buffer holds what the last
  boundary's contents give it, and the seven argument arrays are as launched. The boundary contents are the fold
  through the four segments: a host stretch applies its operations, a call leaves each of its arrays at what its
  write-backs leave and every other buffer as it found it.
-/
import proofs.«117130_j44126493999578_2_alg».proof.Proof.Gen.KernelIdeal.Frame

set_option maxRecDepth 16384

noncomputable section

namespace Cert.KernelIdeal.MainRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the four segments, read at the result buffer and at the arguments: the result holds the last
    boundary's contents there, each argument its launch contents. -/
theorem run_result : θ_run defs (onTc (τ := τ) (main (F := F))) ⟨m, fun _ => 0, ρ⟩ (fun r => ∀ c : Dev nD,
      r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v9 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.MainRun

end
-- ==== Proof.LibMatmulNT.lean ====
/-
  A matrix product of an M × K matrix by an N × K matrix contracted on the LAST axis of both operands (the right
  operand taken transposed) into a zero accumulator, read at one entry on the extended reals: entry (i, j) is
  Σ_k lhs (i, k) · rhs (j, k). No rounding and no order of accumulation is left in it.
-/
import Idealize.ShloMosaic.PureOps.Ideal.Laws
import Idealize.ShloMosaic.Lib.ValueIdx

noncomputable section

namespace Cert.MatmulNT

open Idealize.ShloMosaic Idealize.ShloMosaic.ValueIdx

/-- Entry (i, j) of the product of `lhs` (M × K) and the transpose of `rhs` (N × K) accumulated into zeros. -/
theorem matmul_zero_apply (M K N : Nat) {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => rfl
      | ⟨1, _⟩ => exact ((DotDims.transposedRhs M K N).lhsIdx_val_of_single rfl _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => rfl
      | ⟨1, _⟩ => exact ((DotDims.transposedRhs M K N).rhsIdx_val_of_single rfl _ _).trans hk)
  rw [el, er]

end Cert.MatmulNT

end
-- ==== Proof.Body.lean ====
/-
  The two kernel bodies read at one entry on the extended reals.

  First body, on a block of 128 rows: entry (p, q) of what it stores is
      (Σ_k (x (p, k) · s0 (0, k)) · w (q, k)) · s2 (0, q):
  the rows scaled column by column, multiplied by the transposed weight table (both operands contracted on their
  last axis, into a zero accumulator), and the product scaled column by column. The two roundings to the narrower
  float format are the identity on the extended reals.

  Second body: entry (p, q) is (Σ_k h (p, k) · a (q, k)) · s4 (0, q) + b (0, q).
-/
import proofs.«117130_j44126493999578_2_alg».proof.Proof.Gen.KernelIdeal.Skeleton
import proofs.«117130_j44126493999578_2_alg».proof.Proof.LibMatmulNT
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- The printed dimension numbers are those of a product with the right operand transposed. -/
theorem dims_eq : dot_S128x4096_S4096x4096_S128x4096_1_1_0_0_n_n = DotDims.transposedRhs 128 4096 4096 := rfl

/-- Entry (p, q) of the first body's stored block. -/
theorem hidden_block_apply (x : Vec Ideal S128x4096 .f32) (s0 : Vec Ideal S1x4096 .f32) (w : Vec Ideal S4096x4096 .bf16)
    (s2 : Vec Ideal S1x4096 .f32) (p : Fin 128) (q : Fin 4096) :
    k0_pay1 (F := Ideal) x s0 w s2 (ix2 p q)
      = (∑ k : Fin 4096, (x (ix2 p k) * s0 (ix2 (0 : Fin 1) k)) * w (ix2 q k)) * s2 (ix2 (0 : Fin 1) q) := by
  unfold k0_pay1
  simp only [shapeCast_self]
  rw [truncf_apply, mulf_apply, broadcastTo_1b_ab_apply]
  refine congrArg (· * s2 (ix2 (0 : Fin 1) q)) ?_
  rw [dims_eq]
  refine (Cert.MatmulNT.matmul_zero_apply 128 4096 4096 (φ₁ := .bf16) (φ₂ := .bf16) none _ w p q).trans ?_
  refine Finset.sum_congr rfl fun k _ => ?_
  rw [truncf_apply, mulf_apply, broadcastTo_1b_ab_apply]

/-- Entry (p, q) of the second body's stored block. -/
theorem out_block_apply (h : Vec Ideal S128x4096 .bf16) (a : Vec Ideal S4096x4096 .bf16) (s4 : Vec Ideal S1x4096 .f32)
    (b : Vec Ideal S1x4096 .f32) (p : Fin 128) (q : Fin 4096) :
    k1_pay1 (F := Ideal) h a s4 b (ix2 p q)
      = (∑ k : Fin 4096, h (ix2 p k) * a (ix2 q k)) * s4 (ix2 (0 : Fin 1) q) + b (ix2 (0 : Fin 1) q) := by
  unfold k1_pay1
  simp only [shapeCast_self]
  rw [addf_apply, mulf_apply, broadcastTo_1b_ab_apply, broadcastTo_1b_ab_apply]
  refine congrArg (fun z => z * s4 (ix2 (0 : Fin 1) q) + b (ix2 (0 : Fin 1) q)) ?_
  rw [dims_eq]
  exact Cert.MatmulNT.matmul_zero_apply 128 4096 4096 (φ₁ := .bf16) (φ₂ := .bf16) none h a p q

end Cert.KernelIdeal.Body

end
-- ==== Proof.Arrays.lean ====
/-
  From blocks to arrays, for the two matrix-product calls, on the extended reals.

  Each call walks 64 grid points; at point t it reads rows 128·t … 128·t + 127 of its row operand and the whole of
  its other three operands (their block is the whole array at every point), and writes back rows
  128·t … 128·t + 127 of its result. The 64 written blocks tile the 8192 rows, so after the call the result array is
  ONE function of the arrays the call found:

    first call   hidden (r, q) = (Σ_k (X (r, k) · S0 (0, k)) · Wt (q, k)) · S2 (0, q)
    second call  outrow (r, q) = (Σ_k Hd (r, k) · At (q, k)) · S4 (0, q) + Bi (0, q).
-/
import proofs.«117130_j44126493999578_2_alg».proof.Proof.Gen.KernelIdeal.Frame
import proofs.«117130_j44126493999578_2_alg».proof.Proof.Body
import Idealize.ShloMosaic.Lib.Pipeline.Value
import Idealize.ShloMosaic.Lib.ValueIdx

set_option maxRecDepth 16384

noncomputable section

namespace Cert.KernelIdeal.Arrays

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The two results as whole-array functions -/

/-- Entry (r, q) of the first call's result. -/
def hiddenAt (X : FVec Ideal S8192x4096 .f32) (S0 : FVec Ideal S1x4096 .f32) (Wt : FVec Ideal S4096x4096 .bf16)
    (S2 : FVec Ideal S1x4096 .f32) (r : Fin 8192) (q : Fin 4096) : EReal :=
  (∑ k : Fin 4096, (X (ix2 r k) * S0 (ix2 (0 : Fin 1) k)) * Wt (ix2 q k)) * S2 (ix2 (0 : Fin 1) q)

/-- The first call's result array. -/
def hidden (X : FVec Ideal S8192x4096 .f32) (S0 : FVec Ideal S1x4096 .f32) (Wt : FVec Ideal S4096x4096 .bf16)
    (S2 : FVec Ideal S1x4096 .f32) : FVec Ideal S8192x4096 .bf16 :=
  fun i => hiddenAt X S0 Wt S2 (i 0) (i 1)

/-- Entry (r, q) of the second call's result. -/
def outrowAt (Hd : FVec Ideal S8192x4096 .bf16) (At : FVec Ideal S4096x4096 .bf16) (S4 : FVec Ideal S1x4096 .f32)
    (Bi : FVec Ideal S1x4096 .f32) (r : Fin 8192) (q : Fin 4096) : EReal :=
  (∑ k : Fin 4096, Hd (ix2 r k) * At (ix2 q k)) * S4 (ix2 (0 : Fin 1) q) + Bi (ix2 (0 : Fin 1) q)

/-- The second call's result array. -/
def outrow (Hd : FVec Ideal S8192x4096 .bf16) (At : FVec Ideal S4096x4096 .bf16) (S4 : FVec Ideal S1x4096 .f32)
    (Bi : FVec Ideal S1x4096 .f32) : FVec Ideal S8192x4096 .f32 :=
  fun i => outrowAt Hd At S4 Bi (i 0) (i 1)

/-! ## The first call -/

/-- Where the windows' blocks sit at each grid point: the row operand's block row is the result's, every other
    block index is zero. -/
theorem where0 : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 :=
  (by decide +kernel : ∀ t : Fin grid0.N, _)

/-- Every one of the 64 row blocks is some point's. -/
theorem onto0 : ∀ q0 : Fin 64, ∃ t : Fin cfg0.N, win0_4.index t = ![q0.val, 0] :=
  (by decide +kernel : ∀ q0 : Fin 64, ∃ t : Fin grid0.N, win0_4.index t = ![q0.val, 0])

/-- The row operand's block at point t is rows 128·(block row) … of the array. -/
theorem rows0_apply (c : Dev nD) (t : Fin cfg0.N) (y : S128x4096.Idx) (k : S8192x4096.Idx)
    (hk0 : (k 0).val = win0_4.index t (0 : Fin 2) * 128 + (y 0).val) (hk1 : (k 1).val = (y 1).val) :
    (iblk0 V c 0 t : Vec Ideal S128x4096 .f32) y = (V c main_v0 : S8192x4096.Idx → EReal) k := by
  obtain ⟨e0, e1, -⟩ := where0 t
  unfold iblk0
  rw [View.read_apply]
  show V c main_v0 _ = V c main_v0 _
  congr 1
  funext a
  apply Fin.ext
  match a with
  | ⟨0, _⟩ => show win0_0.index t (0 : Fin 2) * 128 + 1 * (y 0).val = (k 0).val; omega
  | ⟨1, _⟩ => show win0_0.index t (1 : Fin 2) * 4096 + 1 * (y 1).val = (k 1).val; omega

/-- The input scale's block is the whole row. -/
theorem scale0_eq (c : Dev nD) (t : Fin cfg0.N) :
    (iblk0 V c 1 t : Vec Ideal S1x4096 .f32) = (V c main_v1 : S1x4096.Idx → EReal) := by
  obtain ⟨-, -, e0, e1, -⟩ := where0 t
  funext y
  unfold iblk0
  rw [View.read_apply]
  show V c main_v1 _ = V c main_v1 _
  congr 1
  funext a
  apply Fin.ext
  match a with
  | ⟨0, _⟩ => show win0_1.index t (0 : Fin 2) * 1 + 1 * (y 0).val = (y 0).val; omega
  | ⟨1, _⟩ => show win0_1.index t (1 : Fin 2) * 4096 + 1 * (y 1).val = (y 1).val; omega

/-- The weight table's block is the whole table. -/
theorem table0_eq (c : Dev nD) (t : Fin cfg0.N) :
    (iblk0 V c 2 t : Vec Ideal S4096x4096 .bf16) = (V c main_v5 : S4096x4096.Idx → EReal) := by
  obtain ⟨-, -, -, -, e0, e1, -⟩ := where0 t
  funext y
  unfold iblk0
  rw [View.read_apply]
  show V c main_v5 _ = V c main_v5 _
  congr 1
  funext a
  apply Fin.ext
  match a with
  | ⟨0, _⟩ => show win0_2.index t (0 : Fin 2) * 4096 + 1 * (y 0).val = (y 0).val; omega
  | ⟨1, _⟩ => show win0_2.index t (1 : Fin 2) * 4096 + 1 * (y 1).val = (y 1).val; omega

/-- The middle scale's block is the whole row. -/
theorem mid0_eq (c : Dev nD) (t : Fin cfg0.N) :
    (iblk0 V c 3 t : Vec Ideal S1x4096 .f32) = (V c main_v2 : S1x4096.Idx → EReal) := by
  obtain ⟨-, -, -, -, -, -, e0, e1, -⟩ := where0 t
  funext y
  unfold iblk0
  rw [View.read_apply]
  show V c main_v2 _ = V c main_v2 _
  congr 1
  funext a
  apply Fin.ext
  match a with
  | ⟨0, _⟩ => show win0_3.index t (0 : Fin 2) * 1 + 1 * (y 0).val = (y 0).val; omega
  | ⟨1, _⟩ => show win0_3.index t (1 : Fin 2) * 4096 + 1 * (y 1).val = (y 1).val; omega

/-- The first body's block entry against the whole-array function, over variables: when the loaded rows are rows of
    `X` sitting `base` rows down and the other loads are the whole operands. -/
theorem hidden_of_rows (X : FVec Ideal S8192x4096 .f32) (S0 : FVec Ideal S1x4096 .f32) (Wt : FVec Ideal S4096x4096 .bf16)
    (S2 : FVec Ideal S1x4096 .f32) (x : Vec Ideal S128x4096 .f32) (j : S128x4096.Idx) (i : S8192x4096.Idx)
    (hx : ∀ k : Fin 4096, x (ix2 (j 0) k) = X (ix2 (i 0) k)) (hi1 : (i 1).val = (j 1).val) :
    k0_pay1 (F := Ideal) x S0 Wt S2 j = hidden X S0 Wt S2 i := by
  obtain ⟨p, q, rfl⟩ : ∃ (p : Fin 128) (q : Fin 4096), j = ix2 p q := ⟨j 0, j 1, eq_ix2 j⟩
  have hx' : ∀ k : Fin 4096, x (ix2 p k) = X (ix2 (i 0) k) := hx
  have hq : (i 1 : Fin 4096) = q := Fin.ext hi1
  rw [Body.hidden_block_apply]
  unfold hidden hiddenAt
  rw [hq]
  refine congrArg (· * S2 (ix2 (0 : Fin 1) q)) (Finset.sum_congr rfl fun k _ => ?_)
  rw [hx' k]

/-- WHAT POINT t WRITES BACK is block t of `hidden` of the arrays the call found. -/
theorem flushed0_eq (c : Dev nD) (t : Fin cfg0.N) :
    (dat0 V c).flushed 4 t
      = ((cfg0.win 4).blk t).view.read (Elt Ideal) (hidden (V c main_v0) (V c main_v1) (V c main_v5) (V c main_v2)) := by
  show (cfg0.win 4).cut (grid0.coords t) ((dat0 V c).after 4 t) = _
  rw [after0_4]
  unfold out0_4
  rw [View.canon_unit_zero hz]
  simp only [View.ld_unit_zero (S := S128x4096) hz, View.ld_unit_zero (S := S1x4096) hz, View.ld_unit_zero (S := S4096x4096) hz]
  rw [scale0_eq V c t, table0_eq V c t, mid0_eq V c t]
  funext j
  show k0_pay1 (F := Ideal) (iblk0 V c 0 t) (V c main_v1) (V c main_v5) (V c main_v2) j
    = hidden (V c main_v0) (V c main_v1) (V c main_v5) (V c main_v2) (((cfg0.win 4).blk t).view.emb j)
  obtain ⟨-, -, -, -, -, -, -, -, e41⟩ := where0 t
  refine hidden_of_rows (V c main_v0) (V c main_v1) (V c main_v5) (V c main_v2) (iblk0 V c 0 t) j (((cfg0.win 4).blk t).view.emb j)
    (fun k => rows0_apply V c t (ix2 (j 0) k) (ix2 ((((cfg0.win 4).blk t).view.emb j) 0) k) ?_ rfl) ?_
  · show win0_4.index t (0 : Fin 2) * 128 + 1 * (j 0).val = win0_4.index t (0 : Fin 2) * 128 + (j 0).val
    omega
  · show win0_4.index t (1 : Fin 2) * 4096 + 1 * (j 1).val = (j 1).val
    omega

/-- An index of the array is in point t's block iff each coordinate is in the block's range on its axis. -/
theorem mem_blk0 (t : Fin cfg0.N) (i : S8192x4096.Idx) :
    i ∈ ((cfg0.win 4).blk t).view.set ↔ ∀ a : Fin 2, win0_4.index t a * S128x4096.size a ≤ (i a).val
      ∧ (i a).val < win0_4.index t a * S128x4096.size a + S128x4096.size a := by
  show i ∈ ((View.whole main_v7).slice (win0_4.rect t)).set ↔ _
  rw [View.set_slice_whole, Rect.mem_set_unit]
  exact Iff.rfl

/-- The 64 written blocks cover the array: row r is in block r / 128. -/
theorem cover0 (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := onto0 ⟨(i 0).val / 128, by omega⟩
  have q0 : win0_4.index t (0 : Fin 2) = (i 0).val / 128 := congrFun ht 0
  have q1 : win0_4.index t (1 : Fin 2) = 0 := congrFun ht 1
  refine ⟨t, flush0_4 t, ?_⟩
  rw [mem_blk0]
  intro a
  match a with
  | ⟨0, _⟩ =>
    show win0_4.index t (0 : Fin 2) * 128 ≤ (i 0).val ∧ (i 0).val < win0_4.index t (0 : Fin 2) * 128 + 128
    omega
  | ⟨1, _⟩ =>
    show win0_4.index t (1 : Fin 2) * 4096 ≤ (i 1).val ∧ (i 1).val < win0_4.index t (1 : Fin 2) * 4096 + 4096
    omega

/-- THE FIRST CALL'S RESULT ARRAY after the call. -/
theorem final0 (c : Dev nD) :
    (dat0 V c).arrAt 4 cfg0.N = hidden (V c main_v0) (V c main_v1) (V c main_v5) (V c main_v2) :=
  (dat0 V c).arrAt_eq_of_cover 4 _ (fun t _ => flushed0_eq V c t) cover0

/-! ## The second call -/

/-- Where the windows' blocks sit at each grid point: the row operand's block row is the result's, every other
    block index is zero. -/
theorem where1 : ∀ t : Fin cfg1.N,
    win1_0.index t (0 : Fin 2) = win1_4.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 :=
  (by decide +kernel : ∀ t : Fin grid1.N, _)

/-- Every one of the 64 row blocks is some point's. -/
theorem onto1 : ∀ q0 : Fin 64, ∃ t : Fin cfg1.N, win1_4.index t = ![q0.val, 0] :=
  (by decide +kernel : ∀ q0 : Fin 64, ∃ t : Fin grid1.N, win1_4.index t = ![q0.val, 0])

/-- The row operand's block at point t is rows 128·(block row) … of the array. -/
theorem rows1_apply (c : Dev nD) (t : Fin cfg1.N) (y : S128x4096.Idx) (k : S8192x4096.Idx)
    (hk0 : (k 0).val = win1_4.index t (0 : Fin 2) * 128 + (y 0).val) (hk1 : (k 1).val = (y 1).val) :
    (iblk1 V c 0 t : Vec Ideal S128x4096 .bf16) y = (V c main_v7 : S8192x4096.Idx → EReal) k := by
  obtain ⟨e0, e1, -⟩ := where1 t
  unfold iblk1
  rw [View.read_apply]
  show V c main_v7 _ = V c main_v7 _
  congr 1
  funext a
  apply Fin.ext
  match a with
  | ⟨0, _⟩ => show win1_0.index t (0 : Fin 2) * 128 + 1 * (y 0).val = (k 0).val; omega
  | ⟨1, _⟩ => show win1_0.index t (1 : Fin 2) * 4096 + 1 * (y 1).val = (k 1).val; omega

/-- The weight table's block is the whole table. -/
theorem table1_eq (c : Dev nD) (t : Fin cfg1.N) :
    (iblk1 V c 1 t : Vec Ideal S4096x4096 .bf16) = (V c main_v6 : S4096x4096.Idx → EReal) := by
  obtain ⟨-, -, e0, e1, -⟩ := where1 t
  funext y
  unfold iblk1
  rw [View.read_apply]
  show V c main_v6 _ = V c main_v6 _
  congr 1
  funext a
  apply Fin.ext
  match a with
  | ⟨0, _⟩ => show win1_1.index t (0 : Fin 2) * 4096 + 1 * (y 0).val = (y 0).val; omega
  | ⟨1, _⟩ => show win1_1.index t (1 : Fin 2) * 4096 + 1 * (y 1).val = (y 1).val; omega

/-- The output scale's block is the whole row. -/
theorem scale1_eq (c : Dev nD) (t : Fin cfg1.N) :
    (iblk1 V c 2 t : Vec Ideal S1x4096 .f32) = (V c main_v3 : S1x4096.Idx → EReal) := by
  obtain ⟨-, -, -, -, e0, e1, -⟩ := where1 t
  funext y
  unfold iblk1
  rw [View.read_apply]
  show V c main_v3 _ = V c main_v3 _
  congr 1
  funext a
  apply Fin.ext
  match a with
  | ⟨0, _⟩ => show win1_2.index t (0 : Fin 2) * 1 + 1 * (y 0).val = (y 0).val; omega
  | ⟨1, _⟩ => show win1_2.index t (1 : Fin 2) * 4096 + 1 * (y 1).val = (y 1).val; omega

/-- The bias's block is the whole row. -/
theorem bias1_eq (c : Dev nD) (t : Fin cfg1.N) :
    (iblk1 V c 3 t : Vec Ideal S1x4096 .f32) = (V c main_v4 : S1x4096.Idx → EReal) := by
  obtain ⟨-, -, -, -, -, -, e0, e1, -⟩ := where1 t
  funext y
  unfold iblk1
  rw [View.read_apply]
  show V c main_v4 _ = V c main_v4 _
  congr 1
  funext a
  apply Fin.ext
  match a with
  | ⟨0, _⟩ => show win1_3.index t (0 : Fin 2) * 1 + 1 * (y 0).val = (y 0).val; omega
  | ⟨1, _⟩ => show win1_3.index t (1 : Fin 2) * 4096 + 1 * (y 1).val = (y 1).val; omega

/-- The second body's block entry against the whole-array function, over variables: when the loaded rows are rows
    of `Hd` and the other loads are the whole operands. -/
theorem outrow_of_rows (Hd : FVec Ideal S8192x4096 .bf16) (At : FVec Ideal S4096x4096 .bf16) (S4 : FVec Ideal S1x4096 .f32)
    (Bi : FVec Ideal S1x4096 .f32) (x : Vec Ideal S128x4096 .bf16) (j : S128x4096.Idx) (i : S8192x4096.Idx)
    (hx : ∀ k : Fin 4096, x (ix2 (j 0) k) = Hd (ix2 (i 0) k)) (hi1 : (i 1).val = (j 1).val) :
    k1_pay1 (F := Ideal) x At S4 Bi j = outrow Hd At S4 Bi i := by
  obtain ⟨p, q, rfl⟩ : ∃ (p : Fin 128) (q : Fin 4096), j = ix2 p q := ⟨j 0, j 1, eq_ix2 j⟩
  have hx' : ∀ k : Fin 4096, x (ix2 p k) = Hd (ix2 (i 0) k) := hx
  have hq : (i 1 : Fin 4096) = q := Fin.ext hi1
  rw [Body.out_block_apply]
  unfold outrow outrowAt
  rw [hq]
  refine congrArg (fun z => z * S4 (ix2 (0 : Fin 1) q) + Bi (ix2 (0 : Fin 1) q)) (Finset.sum_congr rfl fun k _ => ?_)
  rw [hx' k]

/-- WHAT POINT t WRITES BACK is block t of `outrow` of the arrays the call found. -/
theorem flushed1_eq (c : Dev nD) (t : Fin cfg1.N) :
    (dat1 V c).flushed 4 t
      = ((cfg1.win 4).blk t).view.read (Elt Ideal) (outrow (V c main_v7) (V c main_v6) (V c main_v3) (V c main_v4)) := by
  show (cfg1.win 4).cut (grid1.coords t) ((dat1 V c).after 4 t) = _
  rw [after1_4]
  unfold out1_4
  rw [View.canon_unit_zero hz]
  simp only [View.ld_unit_zero (S := S128x4096) hz, View.ld_unit_zero (S := S1x4096) hz, View.ld_unit_zero (S := S4096x4096) hz]
  rw [table1_eq V c t, scale1_eq V c t, bias1_eq V c t]
  funext j
  show k1_pay1 (F := Ideal) (iblk1 V c 0 t) (V c main_v6) (V c main_v3) (V c main_v4) j
    = outrow (V c main_v7) (V c main_v6) (V c main_v3) (V c main_v4) (((cfg1.win 4).blk t).view.emb j)
  obtain ⟨-, -, -, -, -, -, -, -, e41⟩ := where1 t
  refine outrow_of_rows (V c main_v7) (V c main_v6) (V c main_v3) (V c main_v4) (iblk1 V c 0 t) j (((cfg1.win 4).blk t).view.emb j)
    (fun k => rows1_apply V c t (ix2 (j 0) k) (ix2 ((((cfg1.win 4).blk t).view.emb j) 0) k) ?_ rfl) ?_
  · show win1_4.index t (0 : Fin 2) * 128 + 1 * (j 0).val = win1_4.index t (0 : Fin 2) * 128 + (j 0).val
    omega
  · show win1_4.index t (1 : Fin 2) * 4096 + 1 * (j 1).val = (j 1).val
    omega

/-- An index of the array is in point t's block iff each coordinate is in the block's range on its axis. -/
theorem mem_blk1 (t : Fin cfg1.N) (i : S8192x4096.Idx) :
    i ∈ ((cfg1.win 4).blk t).view.set ↔ ∀ a : Fin 2, win1_4.index t a * S128x4096.size a ≤ (i a).val
      ∧ (i a).val < win1_4.index t a * S128x4096.size a + S128x4096.size a := by
  show i ∈ ((View.whole main_v8).slice (win1_4.rect t)).set ↔ _
  rw [View.set_slice_whole, Rect.mem_set_unit]
  exact Iff.rfl

/-- The 64 written blocks cover the array: row r is in block r / 128. -/
theorem cover1 (i : S8192x4096.Idx) :
    ∃ t : Fin cfg1.N, (cfg1.win 4).flush t = true ∧ i ∈ ((cfg1.win 4).blk t).view.set := by
  have hi0 : (i 0).val < 8192 := (i 0).isLt
  have hi1 : (i 1).val < 4096 := (i 1).isLt
  obtain ⟨t, ht⟩ := onto1 ⟨(i 0).val / 128, by omega⟩
  have q0 : win1_4.index t (0 : Fin 2) = (i 0).val / 128 := congrFun ht 0
  have q1 : win1_4.index t (1 : Fin 2) = 0 := congrFun ht 1
  refine ⟨t, flush1_4 t, ?_⟩
  rw [mem_blk1]
  intro a
  match a with
  | ⟨0, _⟩ =>
    show win1_4.index t (0 : Fin 2) * 128 ≤ (i 0).val ∧ (i 0).val < win1_4.index t (0 : Fin 2) * 128 + 128
    omega
  | ⟨1, _⟩ =>
    show win1_4.index t (1 : Fin 2) * 4096 ≤ (i 1).val ∧ (i 1).val < win1_4.index t (1 : Fin 2) * 4096 + 4096
    omega

/-- THE SECOND CALL'S RESULT ARRAY after the call. -/
theorem final1 (c : Dev nD) :
    (dat1 V c).arrAt 4 cfg1.N = outrow (V c main_v7) (V c main_v6) (V c main_v3) (V c main_v4) :=
  (dat1 V c).arrAt_eq_of_cover 4 _ (fun t _ => flushed1_eq V c t) cover1

end Cert.KernelIdeal.Arrays

end
-- ==== Proof.KernelValue.lean ====
/-
  The kernel program's result as ONE function of its seven argument arrays, on the extended reals.

  Reading the boundary contents back through the four segments: the last re-laying reads the second call's result
  array; that array is `outrow` of what the second call found — the first call's result array, the second weight
  table in the narrower float format, the output scale and the bias as rows; the first call's result array is
  `hidden` of what the first call found — the activations re-laid as 8192 rows, the input scale as a row, the first
  weight table in the narrower format, the middle scale as a row. Buffers a call does not write keep what the
  first host stretch gave them.
-/
import proofs.«117130_j44126493999578_2_alg».proof.Proof.Gen.KernelIdeal.Frame
import proofs.«117130_j44126493999578_2_alg».proof.Proof.Arrays
import Idealize.ShloMosaic.Lib.StableHlo.Run

set_option maxRecDepth 16384

noncomputable section

namespace Cert.KernelIdeal.KernelValue

open Cert.KernelIdeal Cert.KernelIdeal.Gen Cert.KernelIdeal.Arrays
open Idealize.ShloMosaic Idealize.ShloMosaic.TcCoe Idealize.SL.Sem Idealize.ShloMosaic.StableHlo

variable (m : (ℓ : Loc nD τ sig) → Buf (Elt Ideal) ℓ) (ρ : Dev nD → PrngReg)

/-- The kernel program's result array, from its seven arguments. -/
def result (x0 : FVec Ideal S4x2048x4096 .f32) (x1 : FVec Ideal S4096 .f32) (x2 : FVec Ideal S4096x4096 .f32)
    (x3 : FVec Ideal S4096 .f32) (x4 : FVec Ideal S4096x4096 .f32) (x5 x6 : FVec Ideal S4096 .f32) :
    FVec Ideal S4x2048x4096 .f32 :=
  shapeCast S4x2048x4096
    (outrow
      (hidden (shapeCast S8192x4096 x0 Facts₀.shapeCasts_S4x2048x4096_S8192x4096) (shapeCast S1x4096 x1 Facts₀.shapeCasts_S4096_S1x4096)
        (truncf .bf16 x2 Facts₀.bitsLt_bf16_f32) (shapeCast S1x4096 x3 Facts₀.shapeCasts_S4096_S1x4096))
      (truncf .bf16 x4 Facts₀.bitsLt_bf16_f32) (shapeCast S1x4096 x5 Facts₀.shapeCasts_S4096_S1x4096)
      (shapeCast S1x4096 x6 Facts₀.shapeCasts_S4096_S1x4096))
    Facts₀.shapeCasts_S8192x4096_S4x2048x4096

/-! ## What the first host stretch leaves -/

theorem rows_in (c : Dev nD) : (V1 m ρ c main_v0 : S8192x4096.Idx → EReal)
    = shapeCast S8192x4096 (m ((c : Thread nD τ).loc main_arg0)) Facts₀.shapeCasts_S4x2048x4096_S8192x4096 := by
  show StableHlo.after hostOps0 (W0 m ρ c) (Proc.devRef .tc main_v0) = _
  after_results
  rfl

theorem scale_in (c : Dev nD) : (V1 m ρ c main_v1 : S1x4096.Idx → EReal)
    = shapeCast S1x4096 (m ((c : Thread nD τ).loc main_arg1)) Facts₀.shapeCasts_S4096_S1x4096 := by
  show StableHlo.after hostOps0 (W0 m ρ c) (Proc.devRef .tc main_v1) = _
  after_results
  rfl

theorem scale_mid (c : Dev nD) : (V1 m ρ c main_v2 : S1x4096.Idx → EReal)
    = shapeCast S1x4096 (m ((c : Thread nD τ).loc main_arg3)) Facts₀.shapeCasts_S4096_S1x4096 := by
  show StableHlo.after hostOps0 (W0 m ρ c) (Proc.devRef .tc main_v2) = _
  after_results
  rfl

theorem table_first (c : Dev nD) : (V1 m ρ c main_v5 : S4096x4096.Idx → EReal)
    = (truncf .bf16 (m ((c : Thread nD τ).loc main_arg2) : FVec Ideal S4096x4096 .f32) Facts₀.bitsLt_bf16_f32 : FVec Ideal S4096x4096 .bf16) := by
  show StableHlo.after hostOps0 (W0 m ρ c) (Proc.devRef .tc main_v5) = _
  after_results

theorem scale_out (c : Dev nD) : (W1 m ρ c (Proc.devRef .tc main_v3) : S1x4096.Idx → EReal)
    = shapeCast S1x4096 (m ((c : Thread nD τ).loc main_arg5)) Facts₀.shapeCasts_S4096_S1x4096 := by
  show StableHlo.after hostOps0 (W0 m ρ c) (Proc.devRef .tc main_v3) = _
  after_results
  rfl

theorem bias_row (c : Dev nD) : (W1 m ρ c (Proc.devRef .tc main_v4) : S1x4096.Idx → EReal)
    = shapeCast S1x4096 (m ((c : Thread nD τ).loc main_arg6)) Facts₀.shapeCasts_S4096_S1x4096 := by
  show StableHlo.after hostOps0 (W0 m ρ c) (Proc.devRef .tc main_v4) = _
  after_results
  rfl

theorem table_second (c : Dev nD) : (W1 m ρ c (Proc.devRef .tc main_v6) : S4096x4096.Idx → EReal)
    = (truncf .bf16 (m ((c : Thread nD τ).loc main_arg4) : FVec Ideal S4096x4096 .f32) Facts₀.bitsLt_bf16_f32 : FVec Ideal S4096x4096 .bf16) := by
  show StableHlo.after hostOps0 (W0 m ρ c) (Proc.devRef .tc main_v6) = _
  after_results

/-! ## What the second call finds -/

/-- The first call's result array. -/
theorem hidden_found (c : Dev nD) : (V2 m ρ c main_v7 : S8192x4096.Idx → EReal)
    = hidden (shapeCast S8192x4096 (m ((c : Thread nD τ).loc main_arg0)) Facts₀.shapeCasts_S4x2048x4096_S8192x4096)
        (shapeCast S1x4096 (m ((c : Thread nD τ).loc main_arg1)) Facts₀.shapeCasts_S4096_S1x4096)
        (truncf .bf16 (m ((c : Thread nD τ).loc main_arg2)) Facts₀.bitsLt_bf16_f32)
        (shapeCast S1x4096 (m ((c : Thread nD τ).loc main_arg3)) Facts₀.shapeCasts_S4096_S1x4096) := by
  refine (W2_arr m ρ c 4).trans ((final0 (V1 m ρ) c).trans ?_)
  rw [rows_in m ρ c, scale_in m ρ c, table_first m ρ c, scale_mid m ρ c]

theorem table_found (c : Dev nD) : (V2 m ρ c main_v6 : S4096x4096.Idx → EReal)
    = (truncf .bf16 (m ((c : Thread nD τ).loc main_arg4) : FVec Ideal S4096x4096 .f32) Facts₀.bitsLt_bf16_f32 : FVec Ideal S4096x4096 .bf16) :=
  (W2_of_ne m ρ c main_v6 (by decide)).trans (table_second m ρ c)

theorem scale_found (c : Dev nD) : (V2 m ρ c main_v3 : S1x4096.Idx → EReal)
    = shapeCast S1x4096 (m ((c : Thread nD τ).loc main_arg5)) Facts₀.shapeCasts_S4096_S1x4096 :=
  (W2_of_ne m ρ c main_v3 (by decide)).trans (scale_out m ρ c)

theorem bias_found (c : Dev nD) : (V2 m ρ c main_v4 : S1x4096.Idx → EReal)
    = shapeCast S1x4096 (m ((c : Thread nD τ).loc main_arg6)) Facts₀.shapeCasts_S4096_S1x4096 :=
  (W2_of_ne m ρ c main_v4 (by decide)).trans (bias_row m ρ c)

/-! ## The result buffer at the end -/

/-- The last boundary's contents at the result buffer are `result` of the launch contents of the arguments. -/
theorem result_eq (c : Dev nD) : W4 m ρ c (Proc.devRef .tc main_v9)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  have e9 : W4 m ρ c (Proc.devRef .tc main_v9)
      = shapeCast S4x2048x4096 (W3 m ρ c (Proc.devRef .tc main_v8) : S8192x4096.Idx → EReal) Facts₀.shapeCasts_S8192x4096_S4x2048x4096 := by
    show StableHlo.after hostOps2 (W3 m ρ c) (Proc.devRef .tc main_v9) = _
    after_results
    rfl
  have e8 : (W3 m ρ c (Proc.devRef .tc main_v8) : S8192x4096.Idx → EReal)
      = outrow (V2 m ρ c main_v7) (V2 m ρ c main_v6) (V2 m ρ c main_v3) (V2 m ρ c main_v4) :=
    (W3_arr m ρ c 4).trans (final1 (V2 m ρ) c)
  rw [e9, e8, hidden_found m ρ c, table_found m ρ c, scale_found m ρ c, bias_found m ρ c]
  rfl

end Cert.KernelIdeal.KernelValue

end
-- ==== Proof.Bridge.lean ====
/-
  The two programs compute ONE function, entry by entry, on the extended reals.

  With r = 2048·b + s the row of (b, s) in the 8192-row re-laying, entry (b, s, o) of either result is

      (Σ_k ((Σ_i (x (b, s, i) · s0 i) · B (k, i)) · s2 k) · A (o, k)) · s4 o + bias o.

  The kernel program reaches it through its re-layings (row r of the flattened activations is row (b, s); a vector
  laid as a [1, n] row is read at its one row) and its two changes of float format (the identity here); the
  reference through its broadcasts along the last axis and its two contractions over the last axis of both
  operands. The two sides are the same sums of the same products in the same grouping: no law of the extended reals
  is used, so no finiteness of the inputs either.
-/
import proofs.«117130_j44126493999578_2_alg».proof.Proof.KernelValue
import proofs.«117130_j44126493999578_2_alg».proof.Proof.Gen.ReferenceIdeal.Read
import Idealize.ShloMosaic.Lib.Pipeline.Value
import Idealize.ShloMosaic.Lib.ValueIdx
import Idealize.ShloMosaic.Lib.ValueLayout

noncomputable section

namespace Cert.Bridge

open Idealize.ShloMosaic Idealize.ShloMosaic.ValueIdx
open Cert.KernelIdeal.Arrays

/-- Entry (b, s, o) of the result, as both programs compute it. -/
def entry (x0 : (⟨3, ![4, 2048, 4096]⟩ : Shape).Idx → EReal) (x1 : (⟨1, ![4096]⟩ : Shape).Idx → EReal)
    (x2 : (⟨2, ![4096, 4096]⟩ : Shape).Idx → EReal) (x3 : (⟨1, ![4096]⟩ : Shape).Idx → EReal)
    (x4 : (⟨2, ![4096, 4096]⟩ : Shape).Idx → EReal) (x5 x6 : (⟨1, ![4096]⟩ : Shape).Idx → EReal)
    (b : Fin 4) (s : Fin 2048) (o : Fin 4096) : EReal :=
  (∑ k : Fin 4096, ((∑ i : Fin 4096, (x0 (ix3 b s i) * x1 (ix1 i)) * x2 (ix2 k i)) * x3 (ix1 k)) * x4 (ix2 o k))
    * x5 (ix1 o) + x6 (ix1 o)

variable (x0 : (⟨3, ![4, 2048, 4096]⟩ : Shape).Idx → EReal) (x1 : (⟨1, ![4096]⟩ : Shape).Idx → EReal)
    (x2 : (⟨2, ![4096, 4096]⟩ : Shape).Idx → EReal) (x3 : (⟨1, ![4096]⟩ : Shape).Idx → EReal)
    (x4 : (⟨2, ![4096, 4096]⟩ : Shape).Idx → EReal) (x5 x6 : (⟨1, ![4096]⟩ : Shape).Idx → EReal)

/-! ## The kernel program's side -/

section Kernel

open Cert.KernelIdeal Cert.KernelIdeal.KernelValue

theorem hidden_apply (X : FVec Ideal S8192x4096 .f32) (S0 : FVec Ideal S1x4096 .f32) (Wt : FVec Ideal S4096x4096 .bf16)
    (S2 : FVec Ideal S1x4096 .f32) (r : Fin 8192) (q : Fin 4096) :
    hidden X S0 Wt S2 (ix2 r q)
      = (∑ k : Fin 4096, (X (ix2 r k) * S0 (ix2 (0 : Fin 1) k)) * Wt (ix2 q k)) * S2 (ix2 (0 : Fin 1) q) := rfl

theorem outrow_apply (Hd : FVec Ideal S8192x4096 .bf16) (At : FVec Ideal S4096x4096 .bf16) (S4 : FVec Ideal S1x4096 .f32)
    (Bi : FVec Ideal S1x4096 .f32) (r : Fin 8192) (q : Fin 4096) :
    outrow Hd At S4 Bi (ix2 r q)
      = (∑ k : Fin 4096, Hd (ix2 r k) * At (ix2 q k)) * S4 (ix2 (0 : Fin 1) q) + Bi (ix2 (0 : Fin 1) q) := rfl

/-- Row 2048·b + s of the activations re-laid as 8192 rows is row (b, s). -/
theorem rows_apply (b : Fin 4) (s : Fin 2048) (hr : b.val * 2048 + s.val < 8192) (i : Fin 4096) :
    shapeCast S8192x4096 x0 Facts₀.shapeCasts_S4x2048x4096_S8192x4096 (ix2 (⟨b.val * 2048 + s.val, hr⟩ : Fin 8192) i) = x0 (ix3 b s i) :=
  shapeCast_apply x0 _ _ (ix3 b s i) (by
    rw [Shape.rowMajor_val_two, Shape.rowMajor_val_three]
    rfl)

/-- Entry (r, k) of the first call's result, r = 2048·b + s. -/
theorem hidden_entry (b : Fin 4) (s : Fin 2048) (hr : b.val * 2048 + s.val < 8192) (k : Fin 4096) :
    hidden (shapeCast S8192x4096 x0 Facts₀.shapeCasts_S4x2048x4096_S8192x4096) (shapeCast S1x4096 x1 Facts₀.shapeCasts_S4096_S1x4096)
        (truncf .bf16 x2 Facts₀.bitsLt_bf16_f32) (shapeCast S1x4096 x3 Facts₀.shapeCasts_S4096_S1x4096)
        (ix2 (⟨b.val * 2048 + s.val, hr⟩ : Fin 8192) k)
      = (∑ i : Fin 4096, (x0 (ix3 b s i) * x1 (ix1 i)) * x2 (ix2 k i)) * x3 (ix1 k) := by
  rw [hidden_apply, shapeCast_a_1a_apply]
  refine congrArg (· * x3 (ix1 k)) (Finset.sum_congr rfl fun i _ => ?_)
  rw [shapeCast_a_1a_apply, truncf_apply, rows_apply]

/-- The kernel program's result at (b, s, o). -/
theorem kernel_entry (b : Fin 4) (s : Fin 2048) (o : Fin 4096) :
    result x0 x1 x2 x3 x4 x5 x6 (ix3 b s o) = entry x0 x1 x2 x3 x4 x5 x6 b s o := by
  have hr : b.val * 2048 + s.val < 8192 := by have := b.isLt; have := s.isLt; omega
  unfold result
  rw [shapeCast_apply _ Facts₀.shapeCasts_S8192x4096_S4x2048x4096 (ix3 b s o) (ix2 (⟨b.val * 2048 + s.val, hr⟩ : Fin 8192) o) (by
    rw [Shape.rowMajor_val_two, Shape.rowMajor_val_three]
    rfl)]
  rw [outrow_apply, shapeCast_a_1a_apply, shapeCast_a_1a_apply]
  unfold entry
  refine congrArg (fun z => z * x5 (ix1 o) + x6 (ix1 o)) (Finset.sum_congr rfl fun k _ => ?_)
  rw [hidden_entry, truncf_apply]

end Kernel

/-! ## The reference's side -/

section Reference

open Cert.ReferenceIdeal Cert.ReferenceIdeal.Read

/-- The scaled activations at (b, s, i). -/
theorem scaled_entry (b : Fin 4) (s : Fin 2048) (i : Fin 4096) :
    val_main_v2 (F := Ideal) x0 x1 (ix3 b s i) = x0 (ix3 b s i) * x1 (ix1 i) := by
  have e : idx_main_v0 (idx_main_v1 (ix3 b s i)) = ix1 i := funext fun a => Fin.ext (by match a with | ⟨0, _⟩ => rfl)
  rw [val_main_v2_apply, val_main_v1_apply, val_main_v0_apply, e]
  rfl

/-- The scaled first product at (b, s, k). -/
theorem mid_entry (b : Fin 4) (s : Fin 2048) (k : Fin 4096) :
    val_main_v6 (F := Ideal) x0 x1 x2 x3 (ix3 b s k)
      = (∑ i : Fin 4096, (x0 (ix3 b s i) * x1 (ix1 i)) * x2 (ix2 k i)) * x3 (ix1 k) := by
  have e : idx_main_v4 (idx_main_v5 (ix3 b s k)) = ix1 k := funext fun a => Fin.ext (by match a with | ⟨0, _⟩ => rfl)
  have el : ∀ i : Fin 4096, lidx_main_v3 (ix3 b s k) i = ix3 b s i := fun i => funext fun a => Fin.ext (by
    match a with
    | ⟨0, _⟩ => rfl
    | ⟨1, _⟩ => rfl
    | ⟨2, _⟩ => rfl)
  have er : ∀ i : Fin 4096, ridx_main_v3 (ix3 b s k) i = ix2 k i := fun i => funext fun a => Fin.ext (by
    match a with
    | ⟨0, _⟩ => rfl
    | ⟨1, _⟩ => rfl)
  rw [val_main_v6_apply, val_main_v3_apply, val_main_v5_apply, val_main_v4_apply, e]
  show (∑ i : Fin 4096, val_main_v2 (F := Ideal) x0 x1 (lidx_main_v3 (ix3 b s k) i) * x2 (ridx_main_v3 (ix3 b s k) i)) * x3 (ix1 k) = _
  refine congrArg (· * x3 (ix1 k)) (Finset.sum_congr rfl fun i _ => ?_)
  rw [el i, er i, scaled_entry]

/-- The reference's result at (b, s, o). -/
theorem reference_entry (b : Fin 4) (s : Fin 2048) (o : Fin 4096) :
    val_main_v13 (F := Ideal) x0 x1 x2 x3 x4 x5 x6 (ix3 b s o) = entry x0 x1 x2 x3 x4 x5 x6 b s o := by
  have e5 : idx_main_v8 (idx_main_v9 (ix3 b s o)) = ix1 o := funext fun a => Fin.ext (by match a with | ⟨0, _⟩ => rfl)
  have e6 : idx_main_v11 (idx_main_v12 (ix3 b s o)) = ix1 o := funext fun a => Fin.ext (by match a with | ⟨0, _⟩ => rfl)
  have el : ∀ k : Fin 4096, lidx_main_v7 (ix3 b s o) k = ix3 b s k := fun k => funext fun a => Fin.ext (by
    match a with
    | ⟨0, _⟩ => rfl
    | ⟨1, _⟩ => rfl
    | ⟨2, _⟩ => rfl)
  have er : ∀ k : Fin 4096, ridx_main_v7 (ix3 b s o) k = ix2 o k := fun k => funext fun a => Fin.ext (by
    match a with
    | ⟨0, _⟩ => rfl
    | ⟨1, _⟩ => rfl)
  rw [val_main_v13_apply, val_main_v10_apply, val_main_v7_apply, val_main_v9_apply, val_main_v8_apply,
    val_main_v12_apply, val_main_v11_apply, e5, e6]
  unfold entry
  show (∑ k : Fin 4096, val_main_v6 (F := Ideal) x0 x1 x2 x3 (lidx_main_v7 (ix3 b s o) k) * x4 (ridx_main_v7 (ix3 b s o) k))
      * x5 (ix1 o) + x6 (ix1 o) = _
  refine congrArg (fun z => z * x5 (ix1 o) + x6 (ix1 o)) (Finset.sum_congr rfl fun k _ => ?_)
  rw [el k, er k, mid_entry]

end Reference

/-- The kernel program's result array is the reference's. -/
theorem result_eq_reference :
    Cert.KernelIdeal.KernelValue.result x0 x1 x2 x3 x4 x5 x6 = Cert.ReferenceIdeal.Read.val_main_v13 (F := Ideal) x0 x1 x2 x3 x4 x5 x6 := by
  funext i
  obtain ⟨b, s, o, rfl⟩ : ∃ (b : Fin 4) (s : Fin 2048) (o : Fin 4096), i = ix3 b s o := ⟨i 0, i 1, i 2, eq_ix3 i⟩
  rw [kernel_entry, reference_entry]

end Cert.Bridge

end
-- ==== Proof.lean ====
/-
  Two chained matrix products with diagonal scalings,

      out = (((x · diag s0) Bᵀ) · diag s2) Aᵀ) · diag s4 + bias,

  computed by a kernel program in two calls over 8192 flattened rows (each call 64 blocks of 128 rows, the whole
  weight table resident; the operands of each product first taken to a narrower float format) and by a reference of
  plain array operations on [4, 2048, 4096] arrays. On the extended reals a change of float format is the identity
  and a matrix product into a zero accumulator is the plain sum of products, so both programs compute, at every
  entry (b, s, o),

      (Σ_k ((Σ_i (x (b, s, i) · s0 i) · B (k, i)) · s2 k) · A (o, k)) · s4 o + bias o:

  the same sums of the same products, grouped the same way. The modules beside this one: the two bodies read at an
  entry (Body), the two calls' result arrays as whole-array functions (Arrays), the program's run with the result
  named (MainRun), the result as one function of the seven arguments (KernelValue), and that function against the
  reference's, entry by entry (Bridge). Here the five claims are assembled.
-/
import proofs.«117130_j44126493999578_2_alg».proof.Defs
import proofs.«117130_j44126493999578_2_alg».proof.Proof.Gen.Kernel
import proofs.«117130_j44126493999578_2_alg».proof.Proof.Gen.Kernel.Skeleton
import proofs.«117130_j44126493999578_2_alg».proof.Proof.Gen.Kernel.Launch
import proofs.«117130_j44126493999578_2_alg».proof.Proof.Gen.Kernel.Points
import proofs.«117130_j44126493999578_2_alg».proof.Proof.Gen.Kernel.Frame
import proofs.«117130_j44126493999578_2_alg».proof.Proof.Gen.KernelIdeal
import proofs.«117130_j44126493999578_2_alg».proof.Proof.Gen.KernelIdeal.Skeleton
import proofs.«117130_j44126493999578_2_alg».proof.Proof.Gen.KernelIdeal.Launch
import proofs.«117130_j44126493999578_2_alg».proof.Proof.Gen.KernelIdeal.Points
import proofs.«117130_j44126493999578_2_alg».proof.Proof.Gen.KernelIdeal.Frame
import proofs.«117130_j44126493999578_2_alg».proof.Proof.Gen.ReferenceIdeal
import proofs.«117130_j44126493999578_2_alg».proof.Proof.Gen.ReferenceIdeal.Run
import proofs.«117130_j44126493999578_2_alg».proof.Proof.Gen.ReferenceIdeal.Read
import proofs.«117130_j44126493999578_2_alg».proof.Proof.Gen.Pre_finite_inputs
import proofs.«117130_j44126493999578_2_alg».proof.Proof.MainRun
import proofs.«117130_j44126493999578_2_alg».proof.Proof.KernelValue
import proofs.«117130_j44126493999578_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel program was rewritten for the reading on the extended reals. -/
theorem preserves : Cert.preserves_Kernel_KernelIdeal := trivial

/-- The kernel program's run on the extended reals: the result array ends at `KernelValue.result` of the arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v9)
          = Cert.KernelIdeal.KernelValue.result
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono
    (fun _ h c => ⟨(h c).1.trans (Cert.KernelIdeal.KernelValue.result_eq m ρ c), (h c).2⟩)
    (Cert.KernelIdeal.MainRun.run_result (F := Ideal) m ρ)

/-- From memories agreeing on the arguments both programs end with the same result array: the kernel program's is
    `KernelValue.result` of the arguments, the reference's is its operations' composed term, and the two are one
    function (`Bridge.result_eq_reference`). -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  exact (Cert.ReferenceIdeal.Read.val_main_v13_eq _ _ _ _ _ _ _).trans (Cert.Bridge.result_eq_reference _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
